-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 127
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S64, .f32⟩
  | .hbm, ⟨110, _⟩ => ⟨S100000x1, .i32⟩
  | .hbm, ⟨111, _⟩ => ⟨S64, .f32⟩
  | .hbm, ⟨112, _⟩ => ⟨S_, .f32⟩
  | .hbm, ⟨113, _⟩ => ⟨S64x128, .f32⟩
  | .hbm, ⟨114, _⟩ => ⟨S100000x1, .i32⟩
  | .hbm, ⟨115, _⟩ => ⟨S64x128, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x128, .f32⟩
  | .hbm, ⟨121, _⟩ => ⟨S64x128, .f32⟩
  | .hbm, ⟨122, _⟩ => ⟨S64x1, .f32⟩
  | .hbm, ⟨123, _⟩ => ⟨S1x1, .f32⟩
  | .hbm, ⟨124, _⟩ => ⟨S64x1, .f32⟩
  | .hbm, ⟨125, _⟩ => ⟨S64x1, .f32⟩
  | .hbm, ⟨126, _⟩ => ⟨S64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64x128, .f32⟩
  | _ => ⟨S100000x128, .f32⟩

abbrev hbmTy0_1 (i : Nat) : BufTy := match i % 128 with
  | 0 => ⟨S100000x1, .i32⟩
  | 1 => ⟨S64x128, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x1, .f32⟩
  | 9 => ⟨S1x1, .f32⟩
  | 10 => ⟨S64x1, .f32⟩
  | 11 => ⟨S64x1, .f32⟩
  | 12 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/- The idealized kernel's whole run with its result named: every weakly fair execution of the program — host
   stretches and the four tiled kernels in turn — terminates without a fault with the result buffer holding what
   the last boundary's contents give it, and with the eleven argument arrays as launched. The boundary contents
   are the fold through the program: a host stretch rewrites the buffers its operations write, a tiled kernel
   rewrites its output array with the blocks its grid points write back. -/
import proofs.«151201_j37426345017425_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, from any memory with zero counters: the result buffer ends at the last boundary's contents, every
    argument array as launched. -/
theorem run_result : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Whole

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.Region0.lean ====
/- The first tiled kernel (a matrix product) as ONE function of its two input arrays: grid point t handles rows
   10000·t … 10000·t + 9999 of the left operand and the whole 128 × 128 right operand, and writes at (r, j) the
   sum over k of left (r, k) · right (k, j), the formats' narrowing being the identity on extended reals; the
   ten blocks tile the 100000 rows, so the output array ends holding the host's product of the two arrays. -/
import proofs.«151201_j37426345017425_1_alg».proof.Proof.Gen.KernelIdeal.Frame
import proofs.«151201_j37426345017425_1_alg».proof.Proof.LibMatProd
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of a block: row p of the left block against column q of the right one. -/
theorem stored_read (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact Cert.Lib.MatProd.matmul_zero_read (M := 10000) (K := 128) (N := 128) none _ _ p q

/-- The block indices over the grid: left and output blocks are the t-th row block, the right operand is one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function: the host's product of the two arrays. -/
def whole (A : FVec Ideal S100000x128 .f32) (W : FVec Ideal S128x128 .f32) : FVec Ideal S100000x128 .f32 :=
  Host.dotGeneral (DotDims.plain 100000 128 128) none A W

/-- The whole-array function at (r, j). -/
theorem whole_read (A : FVec Ideal S100000x128 .f32) (W : FVec Ideal S128x128 .f32) (r : Fin 100000) (j : Fin 128) :
    whole A W (ix2 r j) = ∑ k : Fin 128, A (ix2 r k) * W (ix2 k j) :=
  Cert.Lib.MatProd.dotGeneral_read (M := 100000) (K := 128) (N := 128) none _ A W r j

/-- What grid point t writes back is block t of the whole-array function. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := block_index t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
      = whole (V c main_arg0) (V c main_arg3) (((cfg0.win 2).blk t).view.emb (ix2 p q))
  have hN : t.val < 10 := by have := t.isLt; have h10 : cfg0.N = 10 := N_0; omega
  have hp : p.val < 10000 := p.isLt
  have hr : t.val * 10000 + p.val < 100000 := by omega
  have he : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  have h0 : ∀ k : Fin 128, ((cfg0.win 0).blk t).view.emb (ix2 p k) = ix2 (⟨t.val * 10000 + p.val, hr⟩ : Fin 100000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [he]
  refine (stored_read _ _ p q).trans ?_
  refine Eq.trans ?_ (whole_read _ _ _ q).symm
  refine Finset.sum_congr rfl fun k _ => ?_
  exact congrArg₂ (fun x y : EReal => x * y) (congrArg (V c main_arg0) (h0 k)) (congrArg (V c main_arg3) (h1 k))

/-- An index is in point t's block iff its row lies in the t-th band of 10000 rows. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every row lies in some point's band: the ten blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have h10 : cfg0.N = 10 := N_0
  let t : Fin cfg0.N := ⟨(i 0).val / 10000, by omega⟩
  obtain ⟨e0, e1, e2, e3, e4, e5⟩ := block_index t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the two input arrays. -/
theorem array_eq (c : Dev nD) :
    (dat0 V c).arrAt 2 cfg0.N = whole (V c main_arg0) (V c main_arg3) :=
  (dat0 V c).arrAt_eq_of_cover 2 _ (fun t _ => flushed_eq V c t) covered

end Cert.KernelIdeal.Region0

end
-- ==== Proof.LibBiasRelu.lean ====
/- A bias row added to every row of a matrix, the sum then bounded below by a scalar spread over the matrix, at
   the ideal float instance and read at an entry, in the two spellings programs give it: with the host's
   broadcasts along named axes, and with a vector unit's casts and trailing-axis broadcast inside a kernel body.
   At (i, j) both are max (A (i, j) + bias (0, j)) floor. Also: a vector turned into a one-row matrix by a cast
   and by a broadcast along axis 1 is the same matrix. All for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.BiasRelu

open Idealize.ShloMosaic Idealize.ShloMosaic.ValueIdx

variable {α : Type} {a b : ℕ}

/-- A one-row matrix repeated down a rows (a broadcast keeping both axes) reads, at (i, j), the row at j. -/
theorem rowRepeat_read (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread over any shape reads the scalar everywhere. -/
theorem splat_read {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- A vector as a one-row matrix: the cast and the broadcast along axis 1 give the same matrix. -/
theorem rowOfVec_cast_eq_bcast (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  rw [shapeCast_a_1a_apply]
  refine (broadcastInDim_apply ![1] hb v (ix2 u q) (ix1 q) fun ax => ?_).symm
  match ax with
  | ⟨0, _⟩ =>
    show q.val = if b = 1 then 0 else q.val
    split
    · have := q.isLt; omega
    · rfl

variable {φ : FTy}

/-- The host's spelling, at (i, j). -/
theorem host_read (A : FVec Ideal ⟨2, ![a, b]⟩ φ) (B : FVec Ideal ⟨2, ![1, b]⟩ φ) (z : FVec Ideal ⟨0, ![]⟩ φ)
    (hB : (⟨2, ![1, b]⟩ : Shape).BroadcastsInDim ⟨2, ![a, b]⟩ ![0, 1])
    (hz : (⟨0, ![]⟩ : Shape).BroadcastsInDim ⟨2, ![a, b]⟩ (![] : Fin 0 → Fin 2)) (i : Fin a) (j : Fin b) :
    maximumf (addf A (broadcastInDim ⟨2, ![a, b]⟩ ![0, 1] hB B)) (broadcastInDim ⟨2, ![a, b]⟩ ![] hz z) (ix2 i j)
      = max (A (ix2 i j) + B (ix2 (0 : Fin 1) j)) (z ix0) := by
  rw [maximumf_apply, addf_apply, rowRepeat_read, splat_read]

/-- A kernel body's spelling, at (p, q): both operands pass through identity casts, the bias row is repeated over
    the rows by a trailing-axis broadcast, the floor is a broadcast scalar. -/
theorem body_read (x0 : FVec Ideal ⟨2, ![a, b]⟩ φ) (x1 : FVec Ideal ⟨2, ![1, b]⟩ φ) (zc : Ideal φ)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ zc) (ix2 p q)
      = max (x0 (ix2 p q) + x1 (ix2 (0 : Fin 1) q)) zc := by
  rw [maximumf_apply, addf_apply, shapeCast_self, shapeCast_self, broadcastTo_1b_ab_apply, broadcast_apply]

end Cert.Lib.BiasRelu

end
-- ==== Proof.Region1.lean ====
/- A middle tiled kernel (bias added to every row, the maximum with zero, then a matrix product) as ONE function
   of its three input arrays: grid point t handles rows 10000·t … 10000·t + 9999 of the input, the whole bias row
   and the whole 128 × 128 right operand, and writes at (r, j) the sum over k of
   max (input (r, k) + bias (0, k)) 0 · right (k, j); the ten blocks tile the 100000 rows, so the output array
   ends holding the host's product of the clamped, biased input with the right operand. -/
import proofs.«151201_j37426345017425_1_alg».proof.Proof.Gen.KernelIdeal.Frame
import proofs.«151201_j37426345017425_1_alg».proof.Proof.LibMatProd
import proofs.«151201_j37426345017425_1_alg».proof.Proof.LibBiasRelu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of a block: row p of the clamped, biased input block against column q of
    the right operand. -/
theorem stored_read (x0 : Vec Ideal S10000x128 .f32) (x1 : Vec Ideal S1x128 .f32) (x2 : Vec Ideal S128x128 .f32)
    (p : Fin 10000) (q : Fin 128) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  refine (Cert.Lib.MatProd.matmul_zero_read (M := 10000) (K := 128) (N := 128) none _ _ p q).trans ?_
  refine Finset.sum_congr rfl fun k _ => ?_
  exact congrArg (fun x : EReal => x * x2 (ix2 k q)) (Cert.Lib.BiasRelu.body_read x0 x1 _ _ _ _ p k)

/-- The block indices over the grid: input and output blocks are the t-th row block; the bias row and the right
    operand are one block each. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The clamped, biased input: the host's spelling. -/
def clamped (hB : S1x128.BroadcastsInDim S100000x128 ![0, 1]) (hz : S_.BroadcastsInDim S100000x128 (![] : Fin 0 → Fin 2))
    (A : FVec Ideal S100000x128 .f32) (B : FVec Ideal S1x128 .f32) : FVec Ideal S100000x128 .f32 :=
  maximumf (addf A (broadcastInDim S100000x128 ![0, 1] hB B))
    (broadcastInDim S100000x128 ![] hz (constant (F := Ideal) S_ .f32 0x00000000#32))

/-- The whole-array function: the host's product of the clamped, biased input with the right operand. -/
def whole (hB : S1x128.BroadcastsInDim S100000x128 ![0, 1]) (hz : S_.BroadcastsInDim S100000x128 (![] : Fin 0 → Fin 2))
    (A : FVec Ideal S100000x128 .f32) (B : FVec Ideal S1x128 .f32) (W : FVec Ideal S128x128 .f32) :
    FVec Ideal S100000x128 .f32 :=
  Host.dotGeneral (DotDims.plain 100000 128 128) none (clamped hB hz A B) W

/-- The whole-array function at (r, j). -/
theorem whole_read (hB) (hz) (A : FVec Ideal S100000x128 .f32) (B : FVec Ideal S1x128 .f32) (W : FVec Ideal S128x128 .f32)
    (r : Fin 100000) (j : Fin 128) :
    whole hB hz A B W (ix2 r j)
      = ∑ k : Fin 128, max (A (ix2 r k) + B (ix2 (0 : Fin 1) k)) (Ideal.ofBits .f32 0x00000000#32) * W (ix2 k j) := by
  refine (Cert.Lib.MatProd.dotGeneral_read (M := 100000) (K := 128) (N := 128) none _ (clamped hB hz A B) W r j).trans ?_
  refine Finset.sum_congr rfl fun k _ => ?_
  exact congrArg (fun x : EReal => x * W (ix2 k j)) (Cert.Lib.BiasRelu.host_read A B _ hB hz r k)

/-- What grid point t writes back is block t of the whole-array function. -/
theorem flushed_eq (hB) (hz) (c : Dev nD) (t : Fin cfg1.N) :
    (dat1 V c).flushed 3 t
      = ((cfg1.win 3).blk t).view.read (Elt Ideal) (whole hB hz (V c main_v43) (V c main_v44) (V c main_arg5)) := by
  show (cfg1.win 3).cut (grid1.coords t) ((dat1 V c).after 3 t) = _
  rw [after1_3]
  unfold out1_3
  rw [View.canon_unit_zero origin]
  simp only [View.ld_unit_zero (S := S10000x128) origin, View.ld_unit_zero (S := S1x128) origin,
    View.ld_unit_zero (S := S128x128) origin]
  obtain ⟨e0, e1, e2, e3, e4, e5, e6, e7⟩ := block_index t
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (ix2 p q)
      = whole hB hz (V c main_v43) (V c main_v44) (V c main_arg5) (((cfg1.win 3).blk t).view.emb (ix2 p q))
  have hN : t.val < 10 := by have := t.isLt; have h10 : cfg1.N = 10 := N_1; omega
  have hp : p.val < 10000 := p.isLt
  have hr : t.val * 10000 + p.val < 100000 := by omega
  have he : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  have h0 : ∀ k : Fin 128, ((cfg1.win 0).blk t).view.emb (ix2 p k) = ix2 (⟨t.val * 10000 + p.val, hr⟩ : Fin 100000) k := fun k => by
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  have h1 : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 k q) = ix2 k q := fun k => by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [he]
  refine (stored_read _ _ _ p q).trans ?_
  refine Eq.trans ?_ (whole_read hB hz _ _ _ _ q).symm
  refine Finset.sum_congr rfl fun k _ => ?_
  exact congrArg₂ (fun x y : EReal => x * y)
    (congrArg₂ (fun x y : EReal => max (x + y) (Ideal.ofBits .f32 0x00000000#32))
      (congrArg (V c main_v43) (h0 k)) (congrArg (V c main_v44) (h1 k)))
    (congrArg (V c main_arg5) (h2 k))

/-- An index is in point t's block iff its row lies in the t-th band of 10000 rows. -/
theorem mem_block (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v45).slice (win1_3.rect t)).set ↔ _
  rw [View.set_slice_whole, Rect.mem_set_unit]
  exact Iff.rfl

/-- Every row lies in some point's band: the ten blocks tile the array. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have h10 : cfg1.N = 10 := N_1
  let t : Fin cfg1.N := ⟨(i 0).val / 10000, by omega⟩
  obtain ⟨e0, e1, e2, e3, e4, e5, e6, e7⟩ := block_index t
  have ht : t.val = (i 0).val / 10000 := rfl
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region: the product of the clamped, biased input with the right operand. -/
theorem array_eq (hB) (hz) (c : Dev nD) :
    (dat1 V c).arrAt 3 cfg1.N = whole hB hz (V c main_v43) (V c main_v44) (V c main_arg5) :=
  (dat1 V c).arrAt_eq_of_cover 3 _ (fun t _ => flushed_eq V hB hz c t) covered

end Cert.KernelIdeal.Region1

end
-- ==== Proof.Region2.lean ====
/- A middle tiled kernel (bias added to every row, the maximum with zero, then a matrix product) as ONE function
   of its three input arrays: grid point t handles rows 10000·t … 10000·t + 9999 of the input, the whole bias row
   and the whole 128 × 128 right operand, and writes at (r, j) the sum over k of
   max (input (r, k) + bias (0, k)) 0 · right (k, j); the ten blocks tile the 100000 rows, so the output array
   ends holding the host's product of the clamped, biased input with the right operand. -/
import proofs.«151201_j37426345017425_1_alg».proof.Proof.Gen.KernelIdeal.Frame
import proofs.«151201_j37426345017425_1_alg».proof.Proof.LibMatProd
import proofs.«151201_j37426345017425_1_alg».proof.Proof.LibBiasRelu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of a block: row p of the clamped, biased input block against column q of
    the right operand. -/
theorem stored_read (x0 : Vec Ideal S10000x128 .f32) (x1 : Vec Ideal S1x128 .f32) (x2 : Vec Ideal S128x128 .f32)
    (p : Fin 10000) (q : Fin 128) :
    k2_pay1 x0 x1 x2 (ix2 p q)
      = ∑ k : Fin 128, max (x0 (ix2 p k) + x1 (ix2 (0 : Fin 1) k)) (Ideal.ofBits .f32 0x00000000#32) * x2 (ix2 k q) := by
  unfold k2_pay1
  refine (Cert.Lib.MatProd.matmul_zero_read (M := 10000) (K := 128) (N := 128) none _ _ p q).trans ?_
  refine Finset.sum_congr rfl fun k _ => ?_
  exact congrArg (fun x : EReal => x * x2 (ix2 k q)) (Cert.Lib.BiasRelu.body_read x0 x1 _ _ _ _ p k)

/-- The block indices over the grid: input and output blocks are the t-th row block; the bias row and the right
    operand are one block each. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The clamped, biased input: the host's spelling. -/
def clamped (hB : S1x128.BroadcastsInDim S100000x128 ![0, 1]) (hz : S_.BroadcastsInDim S100000x128 (![] : Fin 0 → Fin 2))
    (A : FVec Ideal S100000x128 .f32) (B : FVec Ideal S1x128 .f32) : FVec Ideal S100000x128 .f32 :=
  maximumf (addf A (broadcastInDim S100000x128 ![0, 1] hB B))
    (broadcastInDim S100000x128 ![] hz (constant (F := Ideal) S_ .f32 0x00000000#32))

/-- The whole-array function: the host's product of the clamped, biased input with the right operand. -/
def whole (hB : S1x128.BroadcastsInDim S100000x128 ![0, 1]) (hz : S_.BroadcastsInDim S100000x128 (![] : Fin 0 → Fin 2))
    (A : FVec Ideal S100000x128 .f32) (B : FVec Ideal S1x128 .f32) (W : FVec Ideal S128x128 .f32) :
    FVec Ideal S100000x128 .f32 :=
  Host.dotGeneral (DotDims.plain 100000 128 128) none (clamped hB hz A B) W

/-- The whole-array function at (r, j). -/
theorem whole_read (hB) (hz) (A : FVec Ideal S100000x128 .f32) (B : FVec Ideal S1x128 .f32) (W : FVec Ideal S128x128 .f32)
    (r : Fin 100000) (j : Fin 128) :
    whole hB hz A B W (ix2 r j)
      = ∑ k : Fin 128, max (A (ix2 r k) + B (ix2 (0 : Fin 1) k)) (Ideal.ofBits .f32 0x00000000#32) * W (ix2 k j) := by
  refine (Cert.Lib.MatProd.dotGeneral_read (M := 100000) (K := 128) (N := 128) none _ (clamped hB hz A B) W r j).trans ?_
  refine Finset.sum_congr rfl fun k _ => ?_
  exact congrArg (fun x : EReal => x * W (ix2 k j)) (Cert.Lib.BiasRelu.host_read A B _ hB hz r k)

/-- What grid point t writes back is block t of the whole-array function. -/
theorem flushed_eq (hB) (hz) (c : Dev nD) (t : Fin cfg2.N) :
    (dat2 V c).flushed 3 t
      = ((cfg2.win 3).blk t).view.read (Elt Ideal) (whole hB hz (V c main_v58) (V c main_v59) (V c main_arg7)) := by
  show (cfg2.win 3).cut (grid2.coords t) ((dat2 V c).after 3 t) = _
  rw [after2_3]
  unfold out2_3
  rw [View.canon_unit_zero origin]
  simp only [View.ld_unit_zero (S := S10000x128) origin, View.ld_unit_zero (S := S1x128) origin,
    View.ld_unit_zero (S := S128x128) origin]
  obtain ⟨e0, e1, e2, e3, e4, e5, e6, e7⟩ := block_index t
  funext j
  obtain ⟨p, q, rfl⟩ : ∃ (p : Fin 10000) (q : Fin 128), j = ix2 p q := ⟨j 0, j 1, eq_ix2 j⟩
  show k2_pay1 (iblk2 V c 0 t) (iblk2 V c 1 t) (iblk2 V c 2 t) (ix2 p q)
      = whole hB hz (V c main_v58) (V c main_v59) (V c main_arg7) (((cfg2.win 3).blk t).view.emb (ix2 p q))
  have hN : t.val < 10 := by have := t.isLt; have h10 : cfg2.N = 10 := N_2; omega
  have hp : p.val < 10000 := p.isLt
  have hr : t.val * 10000 + p.val < 100000 := by omega
  have he : ((cfg2.win 3).blk t).view.emb (ix2 p q) = ix2 (⟨t.val * 10000 + p.val, hr⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  have h0 : ∀ k : Fin 128, ((cfg2.win 0).blk t).view.emb (ix2 p k) = ix2 (⟨t.val * 10000 + p.val, hr⟩ : Fin 100000) k := fun k => by
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : ∀ k : Fin 128, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, ((cfg2.win 2).blk t).view.emb (ix2 k q) = ix2 k q := fun k => by
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  rw [he]
  refine (stored_read _ _ _ p q).trans ?_
  refine Eq.trans ?_ (whole_read hB hz _ _ _ _ q).symm
  refine Finset.sum_congr rfl fun k _ => ?_
  exact congrArg₂ (fun x y : EReal => x * y)
    (congrArg₂ (fun x y : EReal => max (x + y) (Ideal.ofBits .f32 0x00000000#32))
      (congrArg (V c main_v58) (h0 k)) (congrArg (V c main_v59) (h1 k)))
    (congrArg (V c main_arg7) (h2 k))

/-- An index is in point t's block iff its row lies in the t-th band of 10000 rows. -/
theorem mem_block (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v60).slice (win2_3.rect t)).set ↔ _
  rw [View.set_slice_whole, Rect.mem_set_unit]
  exact Iff.rfl

/-- Every row lies in some point's band: the ten blocks tile the array. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have h10 : cfg2.N = 10 := N_2
  let t : Fin cfg2.N := ⟨(i 0).val / 10000, by omega⟩
  obtain ⟨e0, e1, e2, e3, e4, e5, e6, e7⟩ := block_index t
  have ht : t.val = (i 0).val / 10000 := rfl
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The output array after the region: the product of the clamped, biased input with the right operand. -/
theorem array_eq (hB) (hz) (c : Dev nD) :
    (dat2 V c).arrAt 3 cfg2.N = whole hB hz (V c main_v58) (V c main_v59) (V c main_arg7) :=
  (dat2 V c).arrAt_eq_of_cover 3 _ (fun t _ => flushed_eq V hB hz c t) covered

end Cert.KernelIdeal.Region2

end
-- ==== Proof.Region3.lean ====
/- The last tiled kernel (bias added to every row, then the maximum with zero) as ONE function of its two input
   arrays: grid point t handles rows 10000·t … 10000·t + 9999 and all 128 columns, reads the same rows of the
   input and the whole bias row, and writes max (input (r, j) + bias (0, j)) 0 at (r, j); the ten blocks tile
   the 100000 rows, so the output array ends holding that function everywhere. -/
import proofs.«151201_j37426345017425_1_alg».proof.Proof.Gen.KernelIdeal.Frame
import proofs.«151201_j37426345017425_1_alg».proof.Proof.LibBiasRelu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of a block: the clamp of the input block's entry plus the bias row's. -/
theorem stored_read (x0 : Vec Ideal S10000x128 .f32) (x1 : Vec Ideal S1x128 .f32) (p : Fin 10000) (q : Fin 128) :
    k3_pay1 x0 x1 (ix2 p q) = max (x0 (ix2 p q) + x1 (ix2 (0 : Fin 1) q)) (Ideal.ofBits .f32 0x00000000#32) := by
  unfold k3_pay1
  exact Cert.Lib.BiasRelu.body_read x0 x1 _ _ _ _ p q

/-- The block indices over the grid: input and output blocks are the t-th row block, the bias block is the one
    block there is. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole-array function: the host's spelling of the same arithmetic. -/
def whole (hB : S1x128.BroadcastsInDim S100000x128 ![0, 1]) (hz : S_.BroadcastsInDim S100000x128 (![] : Fin 0 → Fin 2))
    (A : FVec Ideal S100000x128 .f32) (B : FVec Ideal S1x128 .f32) : FVec Ideal S100000x128 .f32 :=
  maximumf (addf A (broadcastInDim S100000x128 ![0, 1] hB B))
    (broadcastInDim S100000x128 ![] hz (constant (F := Ideal) S_ .f32 0x00000000#32))

/-- What grid point t writes back is block t of the whole-array function. -/
theorem flushed_eq (hB) (hz) (c : Dev nD) (t : Fin cfg3.N) :
    (dat3 V c).flushed 2 t = ((cfg3.win 2).blk t).view.read (Elt Ideal) (whole hB hz (V c main_v73) (V c main_v74)) := by
  show (cfg3.win 2).cut (grid3.coords t) ((dat3 V c).after 2 t) = _
  rw [after3_2]
  unfold out3_2
  rw [View.canon_unit_zero origin]
  simp only [View.ld_unit_zero (S := S10000x128) origin, View.ld_unit_zero (S := S1x128) origin]
  obtain ⟨e0, e1, e2, e3, e4, e5⟩ := block_index t
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
      = whole hB hz (V c main_v73) (V c main_v74) (((cfg3.win 2).blk t).view.emb (ix2 p q))
  have hN : t.val < 10 := by have := t.isLt; have h10 : cfg3.N = 10 := N_3; omega
  have hp : p.val < 10000 := p.isLt
  have hr : t.val * 10000 + p.val < 100000 := by omega
  have he : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  have h0 : ((cfg3.win 0).blk t).view.emb (ix2 p q) = ix2 (⟨t.val * 10000 + p.val, hr⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [he]
  refine (stored_read _ _ p q).trans ?_
  refine Eq.trans ?_ (Cert.Lib.BiasRelu.host_read _ _ _ hB hz _ q).symm
  exact congrArg₂ (fun x y : EReal => max (x + y) (Ideal.ofBits .f32 0x00000000#32))
    (congrArg (V c main_v73) h0) (congrArg (V c main_v74) h1)

/-- An index is in point t's block iff its row lies in the t-th band of 10000 rows. -/
theorem mem_block (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v75).slice (win3_2.rect t)).set ↔ _
  rw [View.set_slice_whole, Rect.mem_set_unit]
  exact Iff.rfl

/-- Every row lies in some point's band: the ten blocks tile the array. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have h10 : cfg3.N = 10 := N_3
  let t : Fin cfg3.N := ⟨(i 0).val / 10000, by omega⟩
  obtain ⟨e0, e1, e2, e3, e4, e5⟩ := block_index t
  have ht : t.val = (i 0).val / 10000 := rfl
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region: the clamp of input plus bias row, everywhere. -/
theorem array_eq (hB) (hz) (c : Dev nD) :
    (dat3 V c).arrAt 2 cfg3.N = whole hB hz (V c main_v73) (V c main_v74) :=
  (dat3 V c).arrAt_eq_of_cover 2 _ (fun t _ => flushed_eq V hB hz c t) covered

end Cert.KernelIdeal.Region3

end
-- ==== Proof.Fold.lean ====
/- The idealized kernel's boundary contents hold the reference's stages. The kernel program and the reference run
   the same host operations around four places where the kernel launches a tiled kernel and the reference applies
   a matrix product (after a bias and a clamp, in the middle layers; the last kernel is the bias and clamp alone).
   Walking the boundaries in order: before the first kernel both have the edge lists with self loops and the
   symmetric normalisation weights, as the same terms of the edge array; each tiled kernel's output array is the
   host's operation of its input arrays (the region modules); after each aggregation the kernel has
   (gathered row) · weight where the reference has weight · (gathered row), equal because multiplication of
   extended reals commutes; a bias vector reaches the kernel as a cast to one row and the reference as a
   broadcast to one row, the same matrix. So the result buffer ends at the reference's last stage. -/
import proofs.«151201_j37426345017425_1_alg».proof.Proof.Gen.KernelIdeal.Frame
import proofs.«151201_j37426345017425_1_alg».proof.Proof.RefReadP
import proofs.«151201_j37426345017425_1_alg».proof.Proof.Region0
import proofs.«151201_j37426345017425_1_alg».proof.Proof.Region1
import proofs.«151201_j37426345017425_1_alg».proof.Proof.Region2
import proofs.«151201_j37426345017425_1_alg».proof.Proof.Region3
import proofs.«151201_j37426345017425_1_alg».proof.Proof.LibBiasRelu
import Idealize.ShloMosaic.Lib.StableHlo.Run
import Idealize.ShloMosaic.Lib.ValueIdx

set_option maxRecDepth 16384
set_option maxHeartbeats 4000000

noncomputable section

namespace Cert.KernelIdeal.Fold

open Cert.KernelIdeal Cert.KernelIdeal.Gen Cert.ReferenceIdeal.Read
open Idealize.ShloMosaic Idealize.ShloMosaic.TcCoe Idealize.ShloMosaic.StableHlo Idealize.ShloMosaic.ValueIdx
open Idealize.SL Idealize.SL.Sem

/-- Products of extended reals commute, entry by entry. -/
theorem mulf_comm {s : Shape} {φ : FTy} (a b : FVec Ideal s φ) : mulf a b = mulf b a :=
  funext fun i => mul_comm (a i) (b i)

/-- One step back through a host stretch, at a buffer: its operations' results where they write it, what was there
    where they do not. -/
macro "through_host" : tactic => `(tactic| (show StableHlo.after _ _ _ = _; after_results_simp))

/-! ## Before the first kernel: the edge lists, the weights, and the first product's operands

Stated for any float instance: both programs print the same operations here, and nothing about the numbers is used. -/

section AnyInstance

variable {F : FTy → Type} [FloatOps F]
variable (m : (ℓ : Loc nD τ sig) → Buf (Elt F) ℓ) (ρ : Dev nD → PrngReg) (c : Dev nD)

theorem arg0_at3 : W3 m ρ c (Proc.devRef .tc main_arg0) = m ((c : Thread nD τ).loc main_arg0) := by
  through_host <;> rfl
theorem arg3_at3 : W3 m ρ c (Proc.devRef .tc main_arg3) = m ((c : Thread nD τ).loc main_arg3) := by
  through_host <;> rfl
theorem v3_at3 : W3 m ρ c (Proc.devRef .tc main_v3) = val_main_v3 (F := F) (m ((c : Thread nD τ).loc main_arg1)) := by
  through_host <;> rfl
theorem v6_at3 : W3 m ρ c (Proc.devRef .tc main_v6) = val_main_v6 (F := F) (m ((c : Thread nD τ).loc main_arg1)) := by
  through_host <;> rfl
theorem v29_at3 : W3 m ρ c (Proc.devRef .tc main_v29) = val_main_v29 (F := F) (m ((c : Thread nD τ).loc main_arg1)) := by
  through_host <;> rfl

end AnyInstance

variable (m : (ℓ : Loc nD τ sig) → Buf (Elt Ideal) ℓ) (ρ : Dev nD → PrngReg) (c : Dev nD)

/-! ## The first kernel: the product of the node features with the first weight matrix -/

theorem v30_at4 : W4 m ρ c (Proc.devRef .tc main_v30) = val_main_v30 (F := Ideal) (m ((c : Thread nD τ).loc main_arg0)) (m ((c : Thread nD τ).loc main_arg3)) := by
  refine (W4_arr m ρ c 2).trans ((Region0.array_eq (V3 m ρ) c).trans ?_)
  refine (congrArg₂ Region0.whole (arg0_at3 m ρ c) (arg3_at3 m ρ c)).trans ?_
  rfl
theorem v3_at4 : W4 m ρ c (Proc.devRef .tc main_v3) = val_main_v3 (F := Ideal) (m ((c : Thread nD τ).loc main_arg1)) :=
  (W4_of_ne m ρ c main_v3 (by decide)).trans (v3_at3 m ρ c)
theorem v6_at4 : W4 m ρ c (Proc.devRef .tc main_v6) = val_main_v6 (F := Ideal) (m ((c : Thread nD τ).loc main_arg1)) :=
  (W4_of_ne m ρ c main_v6 (by decide)).trans (v6_at3 m ρ c)
theorem v29_at4 : W4 m ρ c (Proc.devRef .tc main_v29) = val_main_v29 (F := Ideal) (m ((c : Thread nD τ).loc main_arg1)) :=
  (W4_of_ne m ρ c main_v29 (by decide)).trans (v29_at3 m ρ c)
theorem arg4_at4 : W4 m ρ c (Proc.devRef .tc main_arg4) = m ((c : Thread nD τ).loc main_arg4) := by
  rw [W4_of_ne m ρ c main_arg4 (by decide)]
  through_host <;> rfl

/-! ## The first aggregation and the second layer's operands -/

theorem v43_at5 : W5 m ρ c (Proc.devRef .tc main_v43) = val_main_v43 (F := Ideal) (m ((c : Thread nD τ).loc main_arg0)) (m ((c : Thread nD τ).loc main_arg1)) (m ((c : Thread nD τ).loc main_arg3)) := by
  through_host
  rw [v30_at4 m ρ c, v3_at4 m ρ c, v6_at4 m ρ c, v29_at4 m ρ c, mulf_comm (Host.gather _ _ _)]
  rfl
theorem v44_at5 : W5 m ρ c (Proc.devRef .tc main_v44) = val_main_v44 (F := Ideal) (m ((c : Thread nD τ).loc main_arg4)) := by
  through_host
  rw [arg4_at4 m ρ c]
  exact Cert.Lib.BiasRelu.rowOfVec_cast_eq_bcast _ _ _
theorem arg5_at5 : W5 m ρ c (Proc.devRef .tc main_arg5) = m ((c : Thread nD τ).loc main_arg5) := by
  through_host
  rw [W4_of_ne m ρ c main_arg5 (by decide)]
  through_host <;> rfl
theorem v3_at5 : W5 m ρ c (Proc.devRef .tc main_v3) = val_main_v3 (F := Ideal) (m ((c : Thread nD τ).loc main_arg1)) := by
  through_host; exact v3_at4 m ρ c
theorem v6_at5 : W5 m ρ c (Proc.devRef .tc main_v6) = val_main_v6 (F := Ideal) (m ((c : Thread nD τ).loc main_arg1)) := by
  through_host; exact v6_at4 m ρ c
theorem v29_at5 : W5 m ρ c (Proc.devRef .tc main_v29) = val_main_v29 (F := Ideal) (m ((c : Thread nD τ).loc main_arg1)) := by
  through_host; exact v29_at4 m ρ c

/-! ## The second kernel: bias, clamp, product with the second weight matrix -/

theorem v45_at6 : W6 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Region1.array_eq (V5 m ρ) Cert.ReferenceIdeal.Facts₀.bcast_S1x128_S100000x128_0_1 Cert.ReferenceIdeal.Facts₀.bcast_S_S100000x128 c).trans ?_)
  refine (congrArg₂ (fun A B => Region1.whole Cert.ReferenceIdeal.Facts₀.bcast_S1x128_S100000x128_0_1 Cert.ReferenceIdeal.Facts₀.bcast_S_S100000x128 A B (V5 m ρ c main_arg5)) (v43_at5 m ρ c) (v44_at5 m ρ c)).trans ?_
  refine (congrArg (Region1.whole Cert.ReferenceIdeal.Facts₀.bcast_S1x128_S100000x128_0_1 Cert.ReferenceIdeal.Facts₀.bcast_S_S100000x128 _ _) (arg5_at5 m ρ c)).trans ?_
  rfl
theorem v3_at6 : W6 m ρ c (Proc.devRef .tc main_v3) = val_main_v3 (F := Ideal) (m ((c : Thread nD τ).loc main_arg1)) :=
  (W6_of_ne m ρ c main_v3 (by decide)).trans (v3_at5 m ρ c)
theorem v6_at6 : W6 m ρ c (Proc.devRef .tc main_v6) = val_main_v6 (F := Ideal) (m ((c : Thread nD τ).loc main_arg1)) :=
  (W6_of_ne m ρ c main_v6 (by decide)).trans (v6_at5 m ρ c)
theorem v29_at6 : W6 m ρ c (Proc.devRef .tc main_v29) = val_main_v29 (F := Ideal) (m ((c : Thread nD τ).loc main_arg1)) :=
  (W6_of_ne m ρ c main_v29 (by decide)).trans (v29_at5 m ρ c)
theorem arg6_at6 : W6 m ρ c (Proc.devRef .tc main_arg6) = m ((c : Thread nD τ).loc main_arg6) := by
  rw [W6_of_ne m ρ c main_arg6 (by decide)]
  through_host
  rw [W4_of_ne m ρ c main_arg6 (by decide)]
  through_host <;> rfl

/-! ## The second aggregation and the third layer's operands -/

theorem v58_at7 : W7 m ρ c (Proc.devRef .tc main_v58) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  through_host
  rw [v45_at6 m ρ c, v3_at6 m ρ c, v6_at6 m ρ c, v29_at6 m ρ c, mulf_comm (Host.gather _ _ _)]
  rfl
theorem v59_at7 : W7 m ρ c (Proc.devRef .tc main_v59) = val_main_v62 (F := Ideal) (m ((c : Thread nD τ).loc main_arg6)) := by
  through_host
  rw [arg6_at6 m ρ c]
  exact Cert.Lib.BiasRelu.rowOfVec_cast_eq_bcast _ _ _
theorem arg7_at7 : W7 m ρ c (Proc.devRef .tc main_arg7) = m ((c : Thread nD τ).loc main_arg7) := by
  through_host
  rw [W6_of_ne m ρ c main_arg7 (by decide)]
  through_host
  rw [W4_of_ne m ρ c main_arg7 (by decide)]
  through_host <;> rfl
theorem v3_at7 : W7 m ρ c (Proc.devRef .tc main_v3) = val_main_v3 (F := Ideal) (m ((c : Thread nD τ).loc main_arg1)) := by
  through_host; exact v3_at6 m ρ c
theorem v6_at7 : W7 m ρ c (Proc.devRef .tc main_v6) = val_main_v6 (F := Ideal) (m ((c : Thread nD τ).loc main_arg1)) := by
  through_host; exact v6_at6 m ρ c
theorem v29_at7 : W7 m ρ c (Proc.devRef .tc main_v29) = val_main_v29 (F := Ideal) (m ((c : Thread nD τ).loc main_arg1)) := by
  through_host; exact v29_at6 m ρ c

/-! ## The third kernel: bias, clamp, product with the third weight matrix -/

theorem v60_at8 : W8 m ρ c (Proc.devRef .tc main_v60) = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((Region2.array_eq (V7 m ρ) Cert.ReferenceIdeal.Facts₀.bcast_S1x128_S100000x128_0_1 Cert.ReferenceIdeal.Facts₀.bcast_S_S100000x128 c).trans ?_)
  refine (congrArg₂ (fun A B => Region2.whole Cert.ReferenceIdeal.Facts₀.bcast_S1x128_S100000x128_0_1 Cert.ReferenceIdeal.Facts₀.bcast_S_S100000x128 A B (V7 m ρ c main_arg7)) (v58_at7 m ρ c) (v59_at7 m ρ c)).trans ?_
  refine (congrArg (Region2.whole Cert.ReferenceIdeal.Facts₀.bcast_S1x128_S100000x128_0_1 Cert.ReferenceIdeal.Facts₀.bcast_S_S100000x128 _ _) (arg7_at7 m ρ c)).trans ?_
  rfl
theorem v3_at8 : W8 m ρ c (Proc.devRef .tc main_v3) = val_main_v3 (F := Ideal) (m ((c : Thread nD τ).loc main_arg1)) :=
  (W8_of_ne m ρ c main_v3 (by decide)).trans (v3_at7 m ρ c)
theorem v6_at8 : W8 m ρ c (Proc.devRef .tc main_v6) = val_main_v6 (F := Ideal) (m ((c : Thread nD τ).loc main_arg1)) :=
  (W8_of_ne m ρ c main_v6 (by decide)).trans (v6_at7 m ρ c)
theorem v29_at8 : W8 m ρ c (Proc.devRef .tc main_v29) = val_main_v29 (F := Ideal) (m ((c : Thread nD τ).loc main_arg1)) :=
  (W8_of_ne m ρ c main_v29 (by decide)).trans (v29_at7 m ρ c)
theorem arg8_at8 : W8 m ρ c (Proc.devRef .tc main_arg8) = m ((c : Thread nD τ).loc main_arg8) := by
  rw [W8_of_ne m ρ c main_arg8 (by decide)]
  through_host
  rw [W6_of_ne m ρ c main_arg8 (by decide)]
  through_host
  rw [W4_of_ne m ρ c main_arg8 (by decide)]
  through_host <;> rfl

/-! ## The third aggregation and the last kernel's operands -/

theorem v73_at9 : W9 m ρ c (Proc.devRef .tc main_v73) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  through_host
  rw [v60_at8 m ρ c, v3_at8 m ρ c, v6_at8 m ρ c, v29_at8 m ρ c, mulf_comm (Host.gather _ _ _)]
  rfl
theorem v74_at9 : W9 m ρ c (Proc.devRef .tc main_v74) = val_main_v80 (F := Ideal) (m ((c : Thread nD τ).loc main_arg8)) := by
  through_host
  rw [arg8_at8 m ρ c]
  exact Cert.Lib.BiasRelu.rowOfVec_cast_eq_bcast _ _ _

/-! ## The last kernel: bias and clamp -/

theorem v75_at10 : W10 m ρ c (Proc.devRef .tc main_v75) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Region3.array_eq (V9 m ρ) Cert.ReferenceIdeal.Facts₀.bcast_S1x128_S100000x128_0_1 Cert.ReferenceIdeal.Facts₀.bcast_S_S100000x128 c).trans ?_)
  refine (congrArg₂ (Region3.whole Cert.ReferenceIdeal.Facts₀.bcast_S1x128_S100000x128_0_1 Cert.ReferenceIdeal.Facts₀.bcast_S_S100000x128) (v73_at9 m ρ c) (v74_at9 m ρ c)).trans ?_
  rfl

/-- An argument array the tail reads, at the last kernel's exit: as launched (no host operation and no kernel
    writes an argument). -/
macro "arg_at10" : tactic => `(tactic| (
  rw [W10_of_ne _ _ _ _ (by decide)]
  through_host
  rw [W8_of_ne _ _ _ _ (by decide)]
  through_host
  rw [W6_of_ne _ _ _ _ (by decide)]
  through_host
  rw [W4_of_ne _ _ _ _ (by decide)]
  through_host <;> rfl))
theorem arg2_at10 : W10 m ρ c (Proc.devRef .tc main_arg2) = m ((c : Thread nD τ).loc main_arg2) := by arg_at10
theorem arg9_at10 : W10 m ρ c (Proc.devRef .tc main_arg9) = m ((c : Thread nD τ).loc main_arg9) := by arg_at10
theorem arg10_at10 : W10 m ρ c (Proc.devRef .tc main_arg10) = m ((c : Thread nD τ).loc main_arg10) := by arg_at10

/-! ## The tail: the mean over each graph's nodes and the linear head -/

/-- The result buffer at the last boundary is the reference's last stage of the launch arguments. -/
theorem result_at11 : W11 m ρ c (Proc.devRef .tc main_v92)
    = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  through_host
  rw [v75_at10 m ρ c, arg2_at10 m ρ c, arg9_at10 m ρ c, arg10_at10 m ρ c]
  rfl

end Cert.KernelIdeal.Fold

end
-- ==== Proof.lean ====
/- A three-layer graph convolution with mean pooling and a linear head, computed two ways over the extended reals.
   Both programs build, from the edge array, the edge lists with a self loop per node, the node degrees, and the
   symmetric weights 1/sqrt(deg(source)·deg(target)) (zero where a degree is not positive); each layer multiplies
   the node features by a weight matrix, gathers the rows at the edges' sources, scales them by the edge weights,
   sums them at the edges' targets, adds a bias row and takes the maximum with zero; the tail averages each
   graph's node rows and applies the linear head. The kernel program does each layer's product (with the
   previous layer's bias and clamp folded in front of it) in a kernel tiled over bands of 10000 rows, the
   reference as one host product; on extended reals a product into a zero accumulator is the host's product and
   the narrowing of formats is the identity, so each tiled kernel's output array is the reference's operation of
   the same arrays. The only other difference, the order of the two factors in the edge scaling, is commutativity.
   Neither step needs the inputs finite, so the precondition is never opened.
   The three frames: the two kernel programs' are the generated frame certificates; the reference's is its run
   with the result forgotten. The idealization rewrote nothing, so its conjunct is trivial. -/
import proofs.«151201_j37426345017425_1_alg».proof.Defs
import proofs.«151201_j37426345017425_1_alg».proof.Proof.Gen.Kernel
import proofs.«151201_j37426345017425_1_alg».proof.Proof.Gen.Kernel.Skeleton
import proofs.«151201_j37426345017425_1_alg».proof.Proof.Gen.Kernel.Launch
import proofs.«151201_j37426345017425_1_alg».proof.Proof.Gen.Kernel.Points
import proofs.«151201_j37426345017425_1_alg».proof.Proof.Gen.Kernel.Frame
import proofs.«151201_j37426345017425_1_alg».proof.Proof.Gen.KernelIdeal
import proofs.«151201_j37426345017425_1_alg».proof.Proof.Gen.KernelIdeal.Skeleton
import proofs.«151201_j37426345017425_1_alg».proof.Proof.Gen.KernelIdeal.Launch
import proofs.«151201_j37426345017425_1_alg».proof.Proof.Gen.KernelIdeal.Points
import proofs.«151201_j37426345017425_1_alg».proof.Proof.Gen.KernelIdeal.Frame
import proofs.«151201_j37426345017425_1_alg».proof.Proof.Gen.ReferenceIdeal
import proofs.«151201_j37426345017425_1_alg».proof.Proof.Gen.Pre_finite_inputs
import proofs.«151201_j37426345017425_1_alg».proof.Proof.RefRunP
import proofs.«151201_j37426345017425_1_alg».proof.Proof.RefReadP
import proofs.«151201_j37426345017425_1_alg».proof.Proof.KernelRun
import proofs.«151201_j37426345017425_1_alg».proof.Proof.Fold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result_at11 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v100_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
